-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S64x128 .f32) (main_arg3 : FVec F S128 .f32) (main_arg4 : FVec F S64x128 .f32) (main_arg5 : FVec F S128x64 .f32) (main_arg6 : FVec F S64 .f32) (main_arg7 : FVec F S128x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x128 : Shape := ⟨2, ![1, 128]⟩
abbrev S50000x128 : Shape := ⟨2, ![50000, 128]⟩
abbrev S10000x64 : Shape := ⟨2, ![10000, 64]⟩
abbrev S10000x128 : Shape := ⟨2, ![10000, 128]⟩
abbrev S800000x128 : Shape := ⟨2, ![800000, 128]⟩
abbrev S1x64 : Shape := ⟨2, ![1, 64]⟩

abbrev nBuf : Space → Nat
  | .hbm => 59
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S_, .f32⟩
  | .hbm, ⟨35, _⟩ => ⟨S50000x64, .f32⟩
  | .hbm, ⟨36, _⟩ => ⟨S800000x1, .i32⟩
  | .hbm, ⟨37, _⟩ => ⟨S50000x64, .f32⟩
  | .hbm, ⟨38, _⟩ => ⟨S50000x64, .f32⟩
  | .hbm, ⟨39, _⟩ => ⟨S50000x64, .f32⟩
  | .hbm, ⟨40, _⟩ => ⟨S1x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x64, .f32⟩
  | .hbm, ⟨58, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S64_S1x64 : S64.ShapeCasts S1x64
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x128_S10000x128_1_0_0_1_n_n_wf : DotDims.WF S10000x64 S64x128 S10000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S50000x64.size a
  hwx0_1 : ∀ i : grid0.Coords, EltTy.bits .f32 = 32 ∨ (Rect.block (s := S50000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S50000x128.size a
  hwx0_5 : ∀ i : grid0.Coords, EltTy.bits .f32 = 32 ∨ (Rect.block (s := S50000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .f32 = 32 ∨ (Rect.block (s := S50000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S50000x64.size a
  hwx1_5 : ∀ i : grid1.Coords, EltTy.bits .f32 = 32 ∨ (Rect.block (s := S50000x64) S10000x64.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v24) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S50000x128 : Shape := ⟨2, ![50000, 128]⟩
abbrev S1x128 : Shape := ⟨2, ![1, 128]⟩
abbrev S800000x128 : Shape := ⟨2, ![800000, 128]⟩
abbrev S1x64 : Shape := ⟨2, ![1, 64]⟩

abbrev nBuf : Space → Nat
  | .hbm => 75
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S_, .f32⟩
  | .hbm, ⟨26, _⟩ => ⟨S800000x1, .f32⟩
  | .hbm, ⟨27, _⟩ => ⟨S_, .f32⟩
  | .hbm, ⟨28, _⟩ => ⟨S50000x1, .f32⟩
  | .hbm, ⟨29, _⟩ => ⟨S800000x1, .i32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S50000x64, .f32⟩
  | .hbm, ⟨35, _⟩ => ⟨S50000x64, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S_, .f32⟩
  | .hbm, ⟨59, _⟩ => ⟨S800000x1, .f32⟩
  | .hbm, ⟨60, _⟩ => ⟨S_, .f32⟩
  | .hbm, ⟨61, _⟩ => ⟨S50000x1, .f32⟩
  | .hbm, ⟨62, _⟩ => ⟨S800000x1, .i32⟩
  | .hbm, ⟨63, _⟩ => ⟨S50000x1, .f32⟩
  | .hbm, ⟨64, _⟩ => ⟨S_, .f32⟩
  | .hbm, ⟨65, _⟩ => ⟨S50000x1, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S50000x64, .f32⟩
  | .hbm, ⟨70, _⟩ => ⟨S1x64, .f32⟩
  | .hbm, ⟨71, _⟩ => ⟨S50000x64, .f32⟩
  | .hbm, ⟨72, _⟩ => ⟨S50000x64, .f32⟩
  | .hbm, ⟨73, _⟩ => ⟨S50000x64, .f32⟩
  | .hbm, ⟨74, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_cst : Ref sig .tc := ⟨.hbm, 42, rfl⟩
abbrev main_call0_v0 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with its result array named.

  @main is four segments: the host operations before the first pallas_call, the first call (one hidden
  layer: 50000 rows in 5 blocks of 10000), the host operations between the calls, the second call.
  The buffer contents at the four boundaries are the generated fold `Gen.W1 … Gen.W4`; every weakly fair
  execution ends with each unscoped buffer at `Gen.W4`, so the result array `main_v40` ends at
  `Gen.W4 m ρ c main_v40` and the eight argument arrays as launched.
-/
import proofs.«155154_j15710990369655_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last
    boundary's contents and the argument arrays as launched. -/
theorem run_result : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.KernelPay.lean ====
/-
  The two kernel bodies' arithmetic at one entry of a block.

  Each body loads a block of 10000 rows of two feature arrays (the neighbourhood mean and the node's own
  features), two weight matrices and a bias row, and stores
      mean · Wl + x · Wr + bias                      (then the maximum with 0 in the first body).
  On the extended reals the two casts to bf16 are the identity and a matrix product into a zero accumulator
  is the plain sum over the contracted axis, so entry (p, q) of the stored block is
      (∑ₖ mean(p,k)·Wl(k,q)  +  ∑ₖ x(p,k)·Wr(k,q))  +  bias(0,q).
-/
import proofs.«155154_j15710990369655_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

theorem lhs0_0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem lhs0_1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
theorem rhs0_0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
theorem rhs0_1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- A 10000x64 by 64x128 product into a zero accumulator, at entry (p, q): the sum over the 64 contracted columns. -/
theorem matmul0_apply {φ₁ φ₂ : FTy} (l : FVec Ideal S10000x64 φ₁) (r : FVec Ideal S64x128 φ₂) (p : Fin 10000) (q : Fin 128) :
    matmul (F := Ideal) dot_S10000x64_S64x128_S10000x128_1_0_0_1_n_n none l r (constant (F := Ideal) S10000x128 .f32 0x00000000#32) (ix2 p q)
      = ∑ k : Fin 64, l (ix2 p k) * r (ix2 k q) := by
  simp only [matmul]
  rw [Ideal.matmul_constant_zero_apply, ← Equiv.sum_comp (contrEquiv1 dot_S10000x64_S64x128_S10000x128_1_0_0_1_n_n 64 rfl rfl).symm]
  refine Finset.sum_congr rfl fun k _ => ?_
  have hk := contrEquiv1_symm_val dot_S10000x64_S64x128_S10000x128_1_0_0_1_n_n 64 rfl rfl k
  have el : dot_S10000x64_S64x128_S10000x128_1_0_0_1_n_n.lhsIdx (ix2 p q) ((contrEquiv1 dot_S10000x64_S64x128_S10000x128_1_0_0_1_n_n 64 rfl rfl).symm k) = ix2 p k := funext fun a => Fin.ext (by
    match a with
    | ⟨0, _⟩ => exact lhs0_0 _ _
    | ⟨1, _⟩ => exact (lhs0_1 _ _).trans hk)
  have er : dot_S10000x64_S64x128_S10000x128_1_0_0_1_n_n.rhsIdx (ix2 p q) ((contrEquiv1 dot_S10000x64_S64x128_S10000x128_1_0_0_1_n_n 64 rfl rfl).symm k) = ix2 k q := funext fun a => Fin.ext (by
    match a with
    | ⟨0, _⟩ => exact (rhs0_0 _ _).trans hk
    | ⟨1, _⟩ => exact rhs0_1 _ _)
  rw [el, er]

theorem lhs1_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs1_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs1_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs1_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- A 10000x128 by 128x64 product into a zero accumulator, at entry (p, q): the sum over the 128 contracted columns. -/
theorem matmul1_apply {φ₁ φ₂ : FTy} (l : FVec Ideal S10000x128 φ₁) (r : FVec Ideal S128x64 φ₂) (p : Fin 10000) (q : Fin 64) :
    matmul (F := Ideal) dot_S10000x128_S128x64_S10000x64_1_0_0_1_n_n none l r (constant (F := Ideal) S10000x64 .f32 0x00000000#32) (ix2 p q)
      = ∑ k : Fin 128, l (ix2 p k) * r (ix2 k q) := by
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact lhs1_0 _ _
    | ⟨1, _⟩ => exact (lhs1_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (rhs1_0 _ _).trans hk
    | ⟨1, _⟩ => exact rhs1_1 _ _)
  rw [el, er]

/-- The first body's stored block at entry (p, q): the two products' sums, the bias, and the maximum with 0. -/
theorem pay0_apply (x0 x1 : Vec Ideal S10000x64 .f32) (x2 x3 : Vec Ideal S64x128 .f32) (x4 : Vec Ideal S1x128 .f32)
    (p : Fin 10000) (q : Fin 128) :
    k0_pay1 (F := Ideal) x0 x1 x2 x3 x4 (ix2 p q)
      = max (((∑ k : Fin 64, x0 (ix2 p k) * x2 (ix2 k q)) + (∑ k : Fin 64, x1 (ix2 p k) * x3 (ix2 k q))) + x4 (ix2 (0 : Fin 1) q)) 0 := by
  unfold k0_pay1
  rw [maximumf_apply, addf_apply, addf_apply, matmul0_apply, matmul0_apply, shapeCast_self, shapeCast_self,
    broadcastTo_1b_ab_apply]
  simp only [truncf_apply, broadcast_apply]
  show max _ (Ideal.ofBits .f32 0x00000000#32) = _
  rw [Ideal.ofBits_zero_f32]

/-- The second body's stored block at entry (p, q): the two products' sums and the bias. -/
theorem pay1_apply (x0 x1 : Vec Ideal S10000x128 .f32) (x2 x3 : Vec Ideal S128x64 .f32) (x4 : Vec Ideal S1x64 .f32)
    (p : Fin 10000) (q : Fin 64) :
    k1_pay1 (F := Ideal) x0 x1 x2 x3 x4 (ix2 p q)
      = ((∑ k : Fin 128, x0 (ix2 p k) * x2 (ix2 k q)) + (∑ k : Fin 128, x1 (ix2 p k) * x3 (ix2 k q))) + x4 (ix2 (0 : Fin 1) q) := by
  unfold k1_pay1
  rw [addf_apply, addf_apply, matmul1_apply, matmul1_apply, shapeCast_self, shapeCast_self, shapeCast_self,
    broadcastTo_1b_ab_apply]
  simp only [truncf_apply]

end Cert.KernelIdeal.Pay

end
-- ==== Proof.KernelLayers.lean ====
/-
  Each pallas_call's output array as one function of the five arrays it reads.

  A call runs its body at 5 grid points; point t fetches rows [10000·t, 10000·t + 10000) of the two feature
  arrays, the two weight matrices and the bias row whole, and writes back rows [10000·t, 10000·t + 10000)
  of the output. The 5 written blocks tile the 50000 rows, so after the call the output array holds, at
  (n, j),
      (∑ₖ mean(n,k)·Wl(k,j) + ∑ₖ x(n,k)·Wr(k,j)) + bias(0,j)
  (its maximum with 0 for the first call), whatever the arrays held when the call was entered.
-/
import proofs.«155154_j15710990369655_1_alg».proof.Proof.Gen.KernelIdeal.Frame
import proofs.«155154_j15710990369655_1_alg».proof.Proof.KernelPay
import Idealize.ShloMosaic.Lib.Pipeline.Value

set_option maxRecDepth 16384

noncomputable section

namespace Cert.KernelIdeal.Layer

open Cert.KernelIdeal Cert.KernelIdeal.Gen Idealize.ShloMosaic Idealize.ShloMosaic.TcCoe Idealize.SL.Sem
open Idealize.ShloMosaic.ValueIdx
open Idealize.ShloMosaic.Pipeline (Dat)

/-- The hidden layer: a linear map of the neighbourhood mean plus one of the node's own features plus the
    bias, cut off below at 0. -/
def hidden (M X : S50000x64.Idx → EReal) (Wl Wr : S64x128.Idx → EReal) (B : S1x128.Idx → EReal) : S50000x128.Idx → EReal :=
  fun i => max (((∑ k : Fin 64, M (ix2 (i 0) k) * Wl (ix2 k (i 1))) + (∑ k : Fin 64, X (ix2 (i 0) k) * Wr (ix2 k (i 1))))
    + B (ix2 (0 : Fin 1) (i 1))) 0

/-- The output layer: the same two linear maps and bias, not cut off. -/
def output (M X : S50000x128.Idx → EReal) (Wl Wr : S128x64.Idx → EReal) (B : S1x64.Idx → EReal) : S50000x64.Idx → EReal :=
  fun i => ((∑ k : Fin 128, M (ix2 (i 0) k) * Wl (ix2 k (i 1))) + (∑ k : Fin 128, X (ix2 (i 0) k) * Wr (ix2 k (i 1))))
    + B (ix2 (0 : Fin 1) (i 1))

/-- One entry of a stored block of the first call is the hidden layer's entry at the array index the block's
    entry sits at, when the loaded blocks are the arrays' rows and columns there. -/
theorem hidden_entry (x0 x1 : Vec Ideal S10000x64 .f32) (x2 x3 : Vec Ideal S64x128 .f32) (x4 : Vec Ideal S1x128 .f32)
    (M X : S50000x64.Idx → EReal) (Wl Wr : S64x128.Idx → EReal) (B : S1x128.Idx → EReal)
    (p : Fin 10000) (q : Fin 128) (i : S50000x128.Idx)
    (h0 : ∀ k : Fin 64, x0 (ix2 p k) = M (ix2 (i 0) k)) (h1 : ∀ k : Fin 64, x1 (ix2 p k) = X (ix2 (i 0) k))
    (h2 : ∀ k : Fin 64, x2 (ix2 k q) = Wl (ix2 k (i 1))) (h3 : ∀ k : Fin 64, x3 (ix2 k q) = Wr (ix2 k (i 1)))
    (h4 : x4 (ix2 (0 : Fin 1) q) = B (ix2 (0 : Fin 1) (i 1))) :
    k0_pay1 (F := Ideal) x0 x1 x2 x3 x4 (ix2 p q) = hidden M X Wl Wr B i := by
  rw [Pay.pay0_apply]
  unfold hidden
  simp only [h0, h1, h2, h3, h4]

theorem output_entry (x0 x1 : Vec Ideal S10000x128 .f32) (x2 x3 : Vec Ideal S128x64 .f32) (x4 : Vec Ideal S1x64 .f32)
    (M X : S50000x128.Idx → EReal) (Wl Wr : S128x64.Idx → EReal) (B : S1x64.Idx → EReal)
    (p : Fin 10000) (q : Fin 64) (i : S50000x64.Idx)
    (h0 : ∀ k : Fin 128, x0 (ix2 p k) = M (ix2 (i 0) k)) (h1 : ∀ k : Fin 128, x1 (ix2 p k) = X (ix2 (i 0) k))
    (h2 : ∀ k : Fin 128, x2 (ix2 k q) = Wl (ix2 k (i 1))) (h3 : ∀ k : Fin 128, x3 (ix2 k q) = Wr (ix2 k (i 1)))
    (h4 : x4 (ix2 (0 : Fin 1) q) = B (ix2 (0 : Fin 1) (i 1))) :
    k1_pay1 (F := Ideal) x0 x1 x2 x3 x4 (ix2 p q) = output M X Wl Wr B i := by
  rw [Pay.pay1_apply]
  unfold output
  simp only [h0, h1, h2, h3, h4]

theorem hz : (![0, 0] : Fin 2 → Nat) = fun _ => 0 := funext fun a => by fin_cases a <;> rfl

section
variable (V : (c : Dev nD) → (b : Ref sig .tc) → Buf (Elt Ideal) ((c : Thread nD τ).loc b))

/-! ## The first call -/

/-- The printed index maps over the 5 grid points: the two row-blocked inputs move with the output, block t of
    rows; the weights and the bias stay at block (0, 0). -/
theorem idx_facts0 : ∀ t : Fin cfg0.N,
      win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 4 ∧ win0_5.index t (1 : Fin 2) = 0 :=
  (by decide +kernel : ∀ t : Fin grid0.N, _)

/-- Every block of 10000 rows is some point's. -/
theorem idx_onto0 : ∀ q0 : Fin 5, ∃ t : Fin cfg0.N, win0_5.index t = ![q0.val, 0] :=
  (by decide +kernel : ∀ q0 : Fin 5, ∃ t : Fin grid0.N, win0_5.index t = ![q0.val, 0])

/-- What point t writes back is block t of the hidden layer of the arrays as the call finds them. -/
theorem flushed0 (c : Dev nD) (t : Fin cfg0.N) :
    (dat0 (F := Ideal) V c).flushed 5 t = ((cfg0.win 5).blk t).view.read (Elt Ideal)
      (hidden (V c main_v24) (V c main_arg0) (V c main_arg2) (V c main_arg4) (V c main_v25)) := by
  show (cfg0.win 5).cut (grid0.coords t) ((dat0 (F := Ideal) V c).after 5 t) = _
  rw [after0_5]
  unfold out0_5
  rw [View.canon_unit_zero hz]
  simp only [View.ld_unit_zero (S := S10000x64) hz, View.ld_unit_zero (S := S64x128) hz, View.ld_unit_zero (S := S1x128) hz]
  obtain ⟨e0, e0', e1, e1', e2, e2', e3, e3', e4, e4', e5, e5'⟩ := idx_facts0 t
  funext j
  obtain ⟨p, q, rfl⟩ : ∃ (p : Fin 10000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = hidden (V c main_v24) (V c main_arg0) (V c main_arg2) (V c main_arg4) (V c main_v25) (((cfg0.win 5).blk t).view.emb (ix2 p q))
  have hp : p.val < 10000 := p.isLt
  have hq : q.val < 128 := q.isLt
  refine hidden_entry _ _ _ _ _ _ _ _ _ _ p q _ (fun k => ?_) (fun k => ?_) (fun k => ?_) (fun k => ?_) ?_
  · show V c main_v24 (((cfg0.win 0).blk t).view.emb (ix2 p k)) = V c main_v24 _
    refine congrArg _ (funext fun a => Fin.ext ?_)
    match a with
    | ⟨0, _⟩ => show win0_0.index t (0 : Fin 2) * 10000 + 1 * p.val = win0_5.index t (0 : Fin 2) * 10000 + 1 * p.val; omega
    | ⟨1, _⟩ => show win0_0.index t (1 : Fin 2) * 64 + 1 * k.val = k.val; omega
  · show V c main_arg0 (((cfg0.win 1).blk t).view.emb (ix2 p k)) = V c main_arg0 _
    refine congrArg _ (funext fun a => Fin.ext ?_)
    match a with
    | ⟨0, _⟩ => show win0_1.index t (0 : Fin 2) * 10000 + 1 * p.val = win0_5.index t (0 : Fin 2) * 10000 + 1 * p.val; omega
    | ⟨1, _⟩ => show win0_1.index t (1 : Fin 2) * 64 + 1 * k.val = k.val; omega
  · show V c main_arg2 (((cfg0.win 2).blk t).view.emb (ix2 k q)) = V c main_arg2 _
    refine congrArg _ (funext fun a => Fin.ext ?_)
    match a with
    | ⟨0, _⟩ => show win0_2.index t (0 : Fin 2) * 64 + 1 * k.val = k.val; omega
    | ⟨1, _⟩ => show win0_2.index t (1 : Fin 2) * 128 + 1 * q.val = win0_5.index t (1 : Fin 2) * 128 + 1 * q.val; omega
  · show V c main_arg4 (((cfg0.win 3).blk t).view.emb (ix2 k q)) = V c main_arg4 _
    refine congrArg _ (funext fun a => Fin.ext ?_)
    match a with
    | ⟨0, _⟩ => show win0_3.index t (0 : Fin 2) * 64 + 1 * k.val = k.val; omega
    | ⟨1, _⟩ => show win0_3.index t (1 : Fin 2) * 128 + 1 * q.val = win0_5.index t (1 : Fin 2) * 128 + 1 * q.val; omega
  · show V c main_v25 (((cfg0.win 4).blk t).view.emb (ix2 (0 : Fin 1) q)) = V c main_v25 _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = win0_5.index t (1 : Fin 2) * 128 + 1 * q.val; omega

/-- An index of the output array is in point t's block iff each coordinate is in the block's range. -/
theorem mem_blk0 (t : Fin cfg0.N) (i : S50000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v26).slice (win0_5.rect t)).set ↔ _
  rw [View.set_slice_whole, Rect.mem_set_unit]
  exact Iff.rfl

/-- Row n lies in the block of point n / 10000. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto0 ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 128 ≤ (i 1).val ∧ (i 1).val < win0_5.index t (1 : Fin 2) * 128 + 128; omega

/-- After the first call its output array is the hidden layer of the five arrays it was entered with. -/
theorem final0 (c : Dev nD) : (dat0 (F := Ideal) V c).arrAt 5 cfg0.N
    = hidden (V c main_v24) (V c main_arg0) (V c main_arg2) (V c main_arg4) (V c main_v25) :=
  (dat0 (F := Ideal) V c).arrAt_eq_of_cover 5 _ (fun t _ => flushed0 V c t) cover0

/-! ## The second call -/

/-- The printed index maps over the 5 grid points: the two row-blocked inputs move with the output, block t of
    rows; the weights and the bias stay at block (0, 0). -/
theorem idx_facts1 : ∀ t : Fin cfg1.N,
      win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 4 ∧ win1_5.index t (1 : Fin 2) = 0 :=
  (by decide +kernel : ∀ t : Fin grid1.N, _)

/-- Every block of 10000 rows is some point's. -/
theorem idx_onto1 : ∀ q0 : Fin 5, ∃ t : Fin cfg1.N, win1_5.index t = ![q0.val, 0] :=
  (by decide +kernel : ∀ q0 : Fin 5, ∃ t : Fin grid1.N, win1_5.index t = ![q0.val, 0])

/-- What point t writes back is block t of the output layer of the arrays as the call finds them. -/
theorem flushed1 (c : Dev nD) (t : Fin cfg1.N) :
    (dat1 (F := Ideal) V c).flushed 5 t = ((cfg1.win 5).blk t).view.read (Elt Ideal)
      (output (V c main_v38) (V c main_v26) (V c main_arg5) (V c main_arg7) (V c main_v39)) := by
  show (cfg1.win 5).cut (grid1.coords t) ((dat1 (F := Ideal) V c).after 5 t) = _
  rw [after1_5]
  unfold out1_5
  rw [View.canon_unit_zero hz]
  simp only [View.ld_unit_zero (S := S10000x128) hz, View.ld_unit_zero (S := S128x64) hz, View.ld_unit_zero (S := S1x64) hz]
  obtain ⟨e0, e0', e1, e1', e2, e2', e3, e3', e4, e4', e5, e5'⟩ := idx_facts1 t
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = output (V c main_v38) (V c main_v26) (V c main_arg5) (V c main_arg7) (V c main_v39) (((cfg1.win 5).blk t).view.emb (ix2 p q))
  have hp : p.val < 10000 := p.isLt
  have hq : q.val < 64 := q.isLt
  refine output_entry _ _ _ _ _ _ _ _ _ _ p q _ (fun k => ?_) (fun k => ?_) (fun k => ?_) (fun k => ?_) ?_
  · show V c main_v38 (((cfg1.win 0).blk t).view.emb (ix2 p k)) = V c main_v38 _
    refine congrArg _ (funext fun a => Fin.ext ?_)
    match a with
    | ⟨0, _⟩ => show win1_0.index t (0 : Fin 2) * 10000 + 1 * p.val = win1_5.index t (0 : Fin 2) * 10000 + 1 * p.val; omega
    | ⟨1, _⟩ => show win1_0.index t (1 : Fin 2) * 128 + 1 * k.val = k.val; omega
  · show V c main_v26 (((cfg1.win 1).blk t).view.emb (ix2 p k)) = V c main_v26 _
    refine congrArg _ (funext fun a => Fin.ext ?_)
    match a with
    | ⟨0, _⟩ => show win1_1.index t (0 : Fin 2) * 10000 + 1 * p.val = win1_5.index t (0 : Fin 2) * 10000 + 1 * p.val; omega
    | ⟨1, _⟩ => show win1_1.index t (1 : Fin 2) * 128 + 1 * k.val = k.val; omega
  · show V c main_arg5 (((cfg1.win 2).blk t).view.emb (ix2 k q)) = V c main_arg5 _
    refine congrArg _ (funext fun a => Fin.ext ?_)
    match a with
    | ⟨0, _⟩ => show win1_2.index t (0 : Fin 2) * 128 + 1 * k.val = k.val; omega
    | ⟨1, _⟩ => show win1_2.index t (1 : Fin 2) * 64 + 1 * q.val = win1_5.index t (1 : Fin 2) * 64 + 1 * q.val; omega
  · show V c main_arg7 (((cfg1.win 3).blk t).view.emb (ix2 k q)) = V c main_arg7 _
    refine congrArg _ (funext fun a => Fin.ext ?_)
    match a with
    | ⟨0, _⟩ => show win1_3.index t (0 : Fin 2) * 128 + 1 * k.val = k.val; omega
    | ⟨1, _⟩ => show win1_3.index t (1 : Fin 2) * 64 + 1 * q.val = win1_5.index t (1 : Fin 2) * 64 + 1 * q.val; omega
  · show V c main_v39 (((cfg1.win 4).blk t).view.emb (ix2 (0 : Fin 1) q)) = V c main_v39 _
    refine congrArg _ (funext fun a => Fin.ext ?_)
    match a with
    | ⟨0, _⟩ => show win1_4.index t (0 : Fin 2) * 1 + 1 * 0 = 0; omega
    | ⟨1, _⟩ => show win1_4.index t (1 : Fin 2) * 64 + 1 * q.val = win1_5.index t (1 : Fin 2) * 64 + 1 * q.val; omega

/-- An index of the output array is in point t's block iff each coordinate is in the block's range. -/
theorem mem_blk1 (t : Fin cfg1.N) (i : S50000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v40).slice (win1_5.rect t)).set ↔ _
  rw [View.set_slice_whole, Rect.mem_set_unit]
  exact Iff.rfl

/-- Row n lies in the block of point n / 10000. -/
theorem cover1 (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ := idx_onto1 ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- After the second call its output array is the output layer of the five arrays it was entered with. -/
theorem final1 (c : Dev nD) : (dat1 (F := Ideal) V c).arrAt 5 cfg1.N
    = output (V c main_v38) (V c main_v26) (V c main_arg5) (V c main_arg7) (V c main_v39) :=
  (dat1 (F := Ideal) V c).arrAt_eq_of_cover 5 _ (fun t _ => flushed1 V c t) cover1

end

end Cert.KernelIdeal.Layer

end
-- ==== Proof.KernelHost.lean ====
/-
  The idealized kernel's result as one function of its eight argument arrays.

  The host operations around the two pallas_calls compute, from the edge list (row 0 the sources, row 1 the
  targets, both as given), the reciprocal 1 / max(deg, 1) of every node's in-degree, and for a feature array
  the sum of its gathered source rows scattered onto the target nodes, times that reciprocal: the mean of a
  node's in-neighbours. The first call turns the input features and their neighbourhood mean into the hidden
  layer; the second does the same with the hidden layer in place of the input features.
  Each boundary's buffer contents are read back through the fold of host operations to the launch memory.
-/
import proofs.«155154_j15710990369655_1_alg».proof.Proof.KernelLayers
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo

variable {F : FTy → Type} [FloatOps F]

/-- Row r of the edge list, as a vector of 800000 node numbers. -/
def srcRow (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000
def tgtRow (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The gather's row numbers: a negative source counts from the end (50000 is added to it). -/
def srcIdx (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)
/-- The scatter's row numbers: the targets as given. -/
def tgtIdx (t : (⟨S800000, .i32⟩ : BufTy).Contents (Elt F)) : (⟨S800000x1, .i32⟩ : BufTy).Contents (Elt F) :=
  broadcastInDim S800000x1 ![0] bcast_S800000_S800000x1_0 t

/-- 1 / max(deg, 1) per node, as a column: deg the number of edges whose target is the node. -/
def invDeg (t : (⟨S800000, .i32⟩ : BufTy).Contents (Elt F)) : (⟨S50000x1, .f32⟩ : BufTy).Contents (Elt F) :=
  broadcastInDim S50000x1 ![0] bcast_S50000_S50000x1_0
    (Host.divf (broadcastInDim S50000 ![] bcast_S_S50000 (constant S_ .f32 0x3F800000#32))
      (maximumf
        (Host.scatterAdd scatter_S50000_S800000x1_S800000_n_0_0_1 (broadcastInDim S50000 ![] bcast_S_S50000 (constant S_ .f32 0x00000000#32))
          (tgtIdx t) (broadcastInDim S800000 ![] bcast_S_S800000 (constant S_ .f32 0x3F800000#32)))
        (broadcastInDim S50000 ![] bcast_S_S50000 (constant S_ .f32 0x3F800000#32))))

/-- The neighbourhood sum of a 64-column feature array: source rows gathered, added onto their targets. -/
def nbrSum64 (x : (⟨S50000x64, .f32⟩ : BufTy).Contents (Elt F)) (s t : (⟨S800000, .i32⟩ : BufTy).Contents (Elt F)) :
    (⟨S50000x64, .f32⟩ : BufTy).Contents (Elt F) :=
  Host.scatterAdd scatter_S50000x64_S800000x1_S800000x64_1_0_0_1 (broadcastInDim S50000x64 ![] bcast_S_S50000x64 (constant S_ .f32 0x00000000#32))
    (tgtIdx t) (Host.gather gather_S50000x64_S800000x1_S800000x64_1_0_n_n_0_1_164 x (srcIdx s))
def nbrSum128 (x : (⟨S50000x128, .f32⟩ : BufTy).Contents (Elt F)) (s t : (⟨S800000, .i32⟩ : BufTy).Contents (Elt F)) :
    (⟨S50000x128, .f32⟩ : BufTy).Contents (Elt F) :=
  Host.scatterAdd scatter_S50000x128_S800000x1_S800000x128_1_0_0_1 (broadcastInDim S50000x128 ![] bcast_S_S50000x128 (constant S_ .f32 0x00000000#32))
    (tgtIdx t) (Host.gather gather_S50000x128_S800000x1_S800000x128_1_0_n_n_0_1_1128 x (srcIdx s))

/-- The neighbourhood mean: the sum times the reciprocal degree, broadcast along the feature axis. -/
def mean64 (x : (⟨S50000x64, .f32⟩ : BufTy).Contents (Elt F)) (s t : (⟨S800000, .i32⟩ : BufTy).Contents (Elt F))
    (w : (⟨S50000x1, .f32⟩ : BufTy).Contents (Elt F)) : (⟨S50000x64, .f32⟩ : BufTy).Contents (Elt F) :=
  mulf (nbrSum64 x s t) (broadcastInDim S50000x64 ![0, 1] bcast_S50000x1_S50000x64_0_1 w)
def mean128 (x : (⟨S50000x128, .f32⟩ : BufTy).Contents (Elt F)) (s t : (⟨S800000, .i32⟩ : BufTy).Contents (Elt F))
    (w : (⟨S50000x1, .f32⟩ : BufTy).Contents (Elt F)) : (⟨S50000x128, .f32⟩ : BufTy).Contents (Elt F) :=
  mulf (nbrSum128 x s t) (broadcastInDim S50000x128 ![0, 1] bcast_S50000x1_S50000x128_0_1 w)

variable (m : (ℓ : Loc nD τ sig) → Buf (Elt F) ℓ) (ρ : Dev nD → PrngReg)

/-! ## The first call's entry contents: the host operations before it, over the launch memory -/

theorem W1_v1 (c : Dev nD) : W1 m ρ c (Proc.devRef .tc main_v1) = srcRow (m ((c : Thread nD τ).loc main_arg1)) := by
  show StableHlo.after hostOps0 (W0 m ρ c) (Proc.devRef .tc main_v1) = _
  after_results_simp <;> rfl
theorem W1_v3 (c : Dev nD) : W1 m ρ c (Proc.devRef .tc main_v3) = tgtRow (m ((c : Thread nD τ).loc main_arg1)) := by
  show StableHlo.after hostOps0 (W0 m ρ c) (Proc.devRef .tc main_v3) = _
  after_results_simp <;> rfl
theorem W1_v12 (c : Dev nD) : W1 m ρ c (Proc.devRef .tc main_v12) = invDeg (tgtRow (m ((c : Thread nD τ).loc main_arg1))) := by
  show StableHlo.after hostOps0 (W0 m ρ c) (Proc.devRef .tc main_v12) = _
  after_results_simp <;> rfl
theorem W1_v24 (c : Dev nD) : W1 m ρ c (Proc.devRef .tc main_v24)
    = mean64 (m ((c : Thread nD τ).loc main_arg0)) (srcRow (m ((c : Thread nD τ).loc main_arg1))) (tgtRow (m ((c : Thread nD τ).loc main_arg1)))
        (invDeg (tgtRow (m ((c : Thread nD τ).loc main_arg1)))) := by
  show StableHlo.after hostOps0 (W0 m ρ c) (Proc.devRef .tc main_v24) = _
  after_results_simp <;> rfl
theorem W1_v25 (c : Dev nD) : W1 m ρ c (Proc.devRef .tc main_v25)
    = shapeCast _ (m ((c : Thread nD τ).loc main_arg3)) shapeCasts_S128_S1x128 := by
  show StableHlo.after hostOps0 (W0 m ρ c) (Proc.devRef .tc main_v25) = _
  after_results_simp <;> rfl
theorem W1_arg (c : Dev nD) (b : Ref sig .tc) (hb : b = main_arg0 ∨ b = main_arg2 ∨ b = main_arg4 ∨ b = main_arg5 ∨ b = main_arg6 ∨ b = main_arg7) :
    W1 m ρ c (Proc.devRef .tc b) = m ((c : Thread nD τ).loc b) := by
  rcases hb with rfl | rfl | rfl | rfl | rfl | rfl <;>
  · show StableHlo.after hostOps0 (W0 m ρ c) _ = _
    after_results_simp <;> rfl

/-! ## At the ideal instance: between the calls, the second call, and the result -/

section IdealRun

variable (m : (ℓ : Loc nD τ sig) → Buf (Elt Ideal) ℓ) (ρ : Dev nD → PrngReg)

/-- After the first call its output array holds the hidden layer of the arrays the call was entered with. -/
theorem W2_v26 (c : Dev nD) : W2 m ρ c (Proc.devRef .tc main_v26)
    = Layer.hidden (W1 m ρ c (Proc.devRef .tc main_v24)) (W1 m ρ c (Proc.devRef .tc main_arg0)) (W1 m ρ c (Proc.devRef .tc main_arg2))
        (W1 m ρ c (Proc.devRef .tc main_arg4)) (W1 m ρ c (Proc.devRef .tc main_v25)) :=
  (W2_arr m ρ c 5).trans (Layer.final0 (V1 m ρ) c)

/-- A buffer that is no array of the first call is as the call found it. -/
theorem W2_v1 (c : Dev nD) : W2 m ρ c (Proc.devRef .tc main_v1) = W1 m ρ c (Proc.devRef .tc main_v1) := W2_of_ne m ρ c main_v1 (by decide)
theorem W2_v3 (c : Dev nD) : W2 m ρ c (Proc.devRef .tc main_v3) = W1 m ρ c (Proc.devRef .tc main_v3) := W2_of_ne m ρ c main_v3 (by decide)
theorem W2_v12 (c : Dev nD) : W2 m ρ c (Proc.devRef .tc main_v12) = W1 m ρ c (Proc.devRef .tc main_v12) := W2_of_ne m ρ c main_v12 (by decide)
theorem W2_arg5 (c : Dev nD) : W2 m ρ c (Proc.devRef .tc main_arg5) = W1 m ρ c (Proc.devRef .tc main_arg5) := W2_of_ne m ρ c main_arg5 (by decide)
theorem W2_arg6 (c : Dev nD) : W2 m ρ c (Proc.devRef .tc main_arg6) = W1 m ρ c (Proc.devRef .tc main_arg6) := W2_of_ne m ρ c main_arg6 (by decide)
theorem W2_arg7 (c : Dev nD) : W2 m ρ c (Proc.devRef .tc main_arg7) = W1 m ρ c (Proc.devRef .tc main_arg7) := W2_of_ne m ρ c main_arg7 (by decide)

/-- The second call's entry contents: the host operations between the calls, over the first call's exit contents. -/
theorem W3_v38 (c : Dev nD) : W3 m ρ c (Proc.devRef .tc main_v38)
    = mean128 (W2 m ρ c (Proc.devRef .tc main_v26)) (W2 m ρ c (Proc.devRef .tc main_v1)) (W2 m ρ c (Proc.devRef .tc main_v3))
        (W2 m ρ c (Proc.devRef .tc main_v12)) := by
  show StableHlo.after hostOps1 (W2 m ρ c) (Proc.devRef .tc main_v38) = _
  after_results_simp <;> rfl
theorem W3_v39 (c : Dev nD) : W3 m ρ c (Proc.devRef .tc main_v39)
    = shapeCast _ (W2 m ρ c (Proc.devRef .tc main_arg6)) shapeCasts_S64_S1x64 := by
  show StableHlo.after hostOps1 (W2 m ρ c) (Proc.devRef .tc main_v39) = _
  after_results_simp <;> rfl
theorem W3_v26 (c : Dev nD) : W3 m ρ c (Proc.devRef .tc main_v26) = W2 m ρ c (Proc.devRef .tc main_v26) := by
  show StableHlo.after hostOps1 (W2 m ρ c) (Proc.devRef .tc main_v26) = _
  after_results_simp <;> rfl
theorem W3_arg5 (c : Dev nD) : W3 m ρ c (Proc.devRef .tc main_arg5) = W2 m ρ c (Proc.devRef .tc main_arg5) := by
  show StableHlo.after hostOps1 (W2 m ρ c) (Proc.devRef .tc main_arg5) = _
  after_results_simp <;> rfl
theorem W3_arg7 (c : Dev nD) : W3 m ρ c (Proc.devRef .tc main_arg7) = W2 m ρ c (Proc.devRef .tc main_arg7) := by
  show StableHlo.after hostOps1 (W2 m ρ c) (Proc.devRef .tc main_arg7) = _
  after_results_simp <;> rfl

/-- The idealized kernel's result as one function of the eight argument arrays: the output layer of the hidden
    layer and its neighbourhood mean, the hidden layer that of the input features and their neighbourhood mean. -/
def value (x0 : (⟨S50000x64, .f32⟩ : BufTy).Contents (Elt Ideal)) (x1 : (⟨S2x800000, .i32⟩ : BufTy).Contents (Elt Ideal))
    (x2 : (⟨S64x128, .f32⟩ : BufTy).Contents (Elt Ideal)) (x3 : (⟨S128, .f32⟩ : BufTy).Contents (Elt Ideal))
    (x4 : (⟨S64x128, .f32⟩ : BufTy).Contents (Elt Ideal)) (x5 : (⟨S128x64, .f32⟩ : BufTy).Contents (Elt Ideal))
    (x6 : (⟨S64, .f32⟩ : BufTy).Contents (Elt Ideal)) (x7 : (⟨S128x64, .f32⟩ : BufTy).Contents (Elt Ideal)) :
    (⟨S50000x64, .f32⟩ : BufTy).Contents (Elt Ideal) :=
  Layer.output
    (mean128 (Layer.hidden (mean64 x0 (srcRow x1) (tgtRow x1) (invDeg (tgtRow x1))) x0 x2 x4 (shapeCast _ x3 shapeCasts_S128_S1x128))
      (srcRow x1) (tgtRow x1) (invDeg (tgtRow x1)))
    (Layer.hidden (mean64 x0 (srcRow x1) (tgtRow x1) (invDeg (tgtRow x1))) x0 x2 x4 (shapeCast _ x3 shapeCasts_S128_S1x128))
    x5 x7 (shapeCast _ x6 shapeCasts_S64_S1x64)

/-- The last boundary's contents at the result array are that function of the launch memory's arguments. -/
theorem W4_v40 (c : Dev nD) : W4 m ρ c (Proc.devRef .tc main_v40)
    = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((W4_arr m ρ c 5).trans (Layer.final1 (V3 m ρ) c)).trans (by
    show Layer.output (W3 m ρ c (Proc.devRef .tc main_v38)) (W3 m ρ c (Proc.devRef .tc main_v26)) (W3 m ρ c (Proc.devRef .tc main_arg5))
      (W3 m ρ c (Proc.devRef .tc main_arg7)) (W3 m ρ c (Proc.devRef .tc main_v39)) = _
    rw [W3_v38 m ρ c, W3_v26 m ρ c, W3_arg5 m ρ c, W3_arg7 m ρ c, W3_v39 m ρ c, W2_v26 m ρ c, W2_v1 m ρ c, W2_v3 m ρ c, W2_v12 m ρ c,
      W2_arg5 m ρ c, W2_arg6 m ρ c, W2_arg7 m ρ c, W1_v1 m ρ c, W1_v3 m ρ c, W1_v12 m ρ c, W1_v24 m ρ c, W1_v25 m ρ c,
      W1_arg m ρ c main_arg0 (by simp), W1_arg m ρ c main_arg2 (by simp), W1_arg m ρ c main_arg4 (by simp),
      W1_arg m ρ c main_arg5 (by simp), W1_arg m ρ c main_arg6 (by simp), W1_arg m ρ c main_arg7 (by simp)]
    rfl)

end IdealRun

end Cert.KernelIdeal.HostSide

end
-- ==== Proof.ScatterDegree.lean ====
/-
  An accumulating scatter of 800000 updates onto 50000 nodes, in two shapes.

  The updates may be a vector scattered onto a vector of nodes, or a one-column matrix scattered onto a
  one-column matrix of nodes; both read the same 800000 row numbers. An update lands on the entry whose
  coordinate on each axis is the window's start plus the window coordinate. In both shapes the start on
  axis 0 is the signed row number of the update's edge and the window coordinate there is 0; the column
  shape's second axis has one position. So update e of the vector lands on node n exactly when update
  (e, 0) of the column lands on (n, 0), and the two exact sums agree entry by entry.
-/
import Idealize.ShloMosaic.PureOps.Ideal
import Idealize.ShloMosaic.Lib.ValueIdx

noncomputable section

namespace Cert.SageSpec

open Idealize.ShloMosaic Idealize.ShloMosaic.ValueIdx

/-- The node-degree vector's shape. -/
abbrev Nodes : Shape := ⟨1, ![50000]⟩
/-- The node-degree column's shape. -/
abbrev NodesCol : Shape := ⟨2, ![50000, 1]⟩
/-- The edge vector's shape. -/
abbrev Edges : Shape := ⟨1, ![800000]⟩
/-- The edge column's shape (the scatter indices', and the second program's updates'). -/
abbrev EdgesCol : Shape := ⟨2, ![800000, 1]⟩

/-- An update lands on operand index `i` exactly when, on every axis, its start plus its window coordinate is `i`'s
    coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    split at h
    · rename_i hb
      have h0 := Option.some.inj h
      intro a
      have h1 := congrArg Fin.val (congrFun h0 a)
      simp only at h1
      have := hb a
      omega
    · cases h
  · intro h
    have hb : ∀ a, 0 ≤ d.start j idx a + d.window j a ∧ d.start j idx a + d.window j a < s.size a := by
      intro a
      have := h a
      have := (i a).isLt
      omega
    rw [dif_pos hb]
    congr 1
    funext a
    apply Fin.ext
    have := h a
    simp only
    omega

/-- In the vector-shaped scatter, update `j` reads its start index at row `j 0` of the scatter indices. -/
theorem siIdx_vec (d : ScatterDims Nodes EdgesCol Edges)
    (h : d.updateWindowDims = [] ∧ d.insertedWindowDims = [0] ∧ d.scatterDimsToOperandDims = [0] ∧ d.indexVectorDim = 1)
    (j : Edges.Idx) (c : Fin d.scatterDimsToOperandDims.length) : d.siIdx j c = ix2 (j 0) 0 := by
  obtain ⟨uw, iw, sd, iv, wf⟩ := d
  simp only at h
  obtain ⟨rfl, rfl, rfl, rfl⟩ := h
  funext b
  match b with
  | ⟨0, _⟩ =>
    unfold ScatterDims.siIdx
    rw [dif_neg (by simp)]
    apply Fin.ext
    unfold ScatterDims.siCoord
    simp only [Fin.coe_cast]
    exact congrArg (fun a => (j a).val) (Subsingleton.elim _ _)
  | ⟨1, _⟩ =>
    unfold ScatterDims.siIdx
    rw [dif_pos rfl]
    apply Fin.ext
    have := c.isLt
    simp only [List.length_singleton] at this
    show c.val = 0
    omega

/-- The window start of the vector-shaped scatter on the one operand axis: the signed scatter index of row `j 0`. -/
theorem start_vec (d : ScatterDims Nodes EdgesCol Edges)
    (h : d.updateWindowDims = [] ∧ d.insertedWindowDims = [0] ∧ d.scatterDimsToOperandDims = [0] ∧ d.indexVectorDim = 1)
    (j : Edges.Idx) (idx : IVec EdgesCol 32) (a : Fin Nodes.rank) :
    d.start j idx a = (idx (ix2 (j 0) 0)).toInt := by
  have hs := siIdx_vec d h j
  obtain ⟨_, _, hsd, _⟩ := h
  have h0 : a = 0 := Subsingleton.elim _ _
  have ha : a ∈ d.scatterDimsToOperandDims := by rw [hsd, h0]; simp
  unfold ScatterDims.start
  rw [dif_pos ha, hs]
  rfl

/-- The one operand axis of the vector-shaped scatter is inserted: the window coordinate on it is zero. -/
theorem window_vec (d : ScatterDims Nodes EdgesCol Edges)
    (h : d.updateWindowDims = [] ∧ d.insertedWindowDims = [0] ∧ d.scatterDimsToOperandDims = [0] ∧ d.indexVectorDim = 1)
    (j : Edges.Idx) (a : Fin Nodes.rank) : d.window j a = 0 := by
  obtain ⟨_, hi, _, _⟩ := h
  have h0 : a = 0 := Subsingleton.elim _ _
  have ha : a ∉ d.sKept := by
    intro hm
    have := (List.mem_filter.1 hm).2
    rw [hi, h0] at this
    simp at this
  unfold ScatterDims.window
  rw [dif_neg ha]

/-- Update `j` of the vector-shaped scatter lands on node `i` exactly when the signed scatter index of row `j 0`
    is `i`'s coordinate. -/
theorem resultIdx?_vec (d : ScatterDims Nodes EdgesCol Edges)
    (h : d.updateWindowDims = [] ∧ d.insertedWindowDims = [0] ∧ d.scatterDimsToOperandDims = [0] ∧ d.indexVectorDim = 1)
    (j : Edges.Idx) (idx : IVec EdgesCol 32) (i : Nodes.Idx) :
    d.resultIdx? j idx = some i ↔ (idx (ix2 (j 0) 0)).toInt = ((i 0).val : Int) := by
  rw [resultIdx?_eq_some_iff]
  constructor
  · intro hh
    have := hh 0
    rw [start_vec d h, window_vec d h] at this
    simpa using this
  · intro hh a
    have h0 : a = 0 := Subsingleton.elim _ _
    rw [start_vec d h, window_vec d h, h0, hh]
    simp

/-- An axis of the edge column other than axis 1 is axis 0. -/
theorem eq_zero_of_mem_kept (x : Fin EdgesCol.rank) (hx : x ∈ EdgesCol.kept [1]) : x = 0 := by
  have h1 : x ≠ 1 := by
    have := (List.mem_filter.1 hx).2
    simpa using this
  have h2 : x.val ≠ 1 := fun hv => h1 (Fin.ext hv)
  have h3 : x.val < 2 := x.isLt
  apply Fin.ext
  show x.val = 0
  omega

/-- A coordinate on axis 1 of the edge column is zero: the axis has one position. -/
theorem val_eq_zero_of_mem (j : EdgesCol.Idx) (x : Fin EdgesCol.rank) (hx : x ∈ [(1 : Fin EdgesCol.rank)]) :
    (j x).val = 0 := by
  have h1 : x = 1 := by simpa using hx
  subst h1
  have h2 : (j 1).val < 1 := (j 1).isLt
  omega

/-- Every index of the edge column has second coordinate zero. -/
theorem edgesCol_eq (j : EdgesCol.Idx) : j = ix2 (j 0) 0 := by
  funext a
  match a with
  | ⟨0, _⟩ => rfl
  | ⟨1, _⟩ =>
    apply Fin.ext
    have h2 : (j 1).val < 1 := (j 1).isLt
    show (j 1).val = 0
    omega

/-- In the column-shaped scatter, update `j` reads its start index at row `j 0` of the scatter indices. -/
theorem siIdx_col (d : ScatterDims NodesCol EdgesCol EdgesCol) (h : d.updateWindowDims = [1] ∧ d.insertedWindowDims = [0] ∧ d.scatterDimsToOperandDims = [0] ∧ d.indexVectorDim = 1)
    (j : EdgesCol.Idx) (c : Fin d.scatterDimsToOperandDims.length) : d.siIdx j c = ix2 (j 0) 0 := by
  obtain ⟨uw, iw, sd, iv, wf⟩ := d
  simp only at h
  obtain ⟨rfl, rfl, rfl, rfl⟩ := h
  funext b
  match b with
  | ⟨0, _⟩ =>
    unfold ScatterDims.siIdx
    rw [dif_neg (by simp)]
    apply Fin.ext
    unfold ScatterDims.siCoord
    simp only [Fin.coe_cast]
    exact congrArg (fun a => (j a).val) (eq_zero_of_mem_kept _ (List.getElem_mem _))
  | ⟨1, _⟩ =>
    unfold ScatterDims.siIdx
    rw [dif_pos rfl]
    apply Fin.ext
    have := c.isLt
    simp only [List.length_singleton] at this
    show c.val = 0
    omega

/-- The window start of the column-shaped scatter: on axis 0 the signed scatter index of row `j 0`, on axis 1 (which
    the map does not name) zero. -/
theorem start_col (d : ScatterDims NodesCol EdgesCol EdgesCol) (h : d.updateWindowDims = [1] ∧ d.insertedWindowDims = [0] ∧ d.scatterDimsToOperandDims = [0] ∧ d.indexVectorDim = 1)
    (j : EdgesCol.Idx) (idx : IVec EdgesCol 32) (a : Fin NodesCol.rank) :
    d.start j idx a = if a = 0 then (idx (ix2 (j 0) 0)).toInt else 0 := by
  have hs := siIdx_col d h j
  obtain ⟨_, _, hsd, _⟩ := h
  unfold ScatterDims.start
  by_cases ha : a = 0
  · have hm : a ∈ d.scatterDimsToOperandDims := by rw [hsd, ha]; simp
    rw [dif_pos hm, hs, if_pos ha]
    rfl
  · have hm : a ∉ d.scatterDimsToOperandDims := by rw [hsd]; simpa using ha
    rw [dif_neg hm, if_neg ha]

/-- The window coordinate of the column-shaped scatter is zero on both operand axes: axis 0 is inserted, and axis 1
    carries the update's coordinate on its one-position axis 1. -/
theorem window_col (d : ScatterDims NodesCol EdgesCol EdgesCol) (h : d.updateWindowDims = [1] ∧ d.insertedWindowDims = [0] ∧ d.scatterDimsToOperandDims = [0] ∧ d.indexVectorDim = 1)
    (j : EdgesCol.Idx) (a : Fin NodesCol.rank) : d.window j a = 0 := by
  obtain ⟨hu, _, _, _⟩ := h
  unfold ScatterDims.window
  split
  · apply val_eq_zero_of_mem
    rw [← hu]
    exact List.getElem_mem _
  · rfl

/-- Update `j` of the column-shaped scatter lands on `i` exactly when the signed scatter index of row `j 0` is
    `i`'s first coordinate (the second coordinates are both zero). -/
theorem resultIdx?_col (d : ScatterDims NodesCol EdgesCol EdgesCol) (h : d.updateWindowDims = [1] ∧ d.insertedWindowDims = [0] ∧ d.scatterDimsToOperandDims = [0] ∧ d.indexVectorDim = 1)
    (j : EdgesCol.Idx) (idx : IVec EdgesCol 32) (i : NodesCol.Idx) :
    d.resultIdx? j idx = some i ↔ (idx (ix2 (j 0) 0)).toInt = ((i 0).val : Int) := by
  rw [resultIdx?_eq_some_iff]
  constructor
  · intro hh
    have := hh 0
    rw [start_col d h, window_col d h, if_pos rfl] at this
    simpa using this
  · intro hh a
    match a with
    | ⟨0, _⟩ =>
      show d.start j idx 0 + (d.window j 0 : Int) = ((i 0).val : Int)
      rw [start_col d h, window_col d h, if_pos rfl]
      simpa using hh
    | ⟨1, _⟩ =>
      show d.start j idx 1 + (d.window j 1 : Int) = ((i 1).val : Int)
      rw [start_col d h, window_col d h, if_neg (by decide)]
      have h2 : (i 1).val < 1 := (i 1).isLt
      omega

/-- The two shapes of the node-degree scatter agree: update `e` of the vector-shaped one lands on node `n` exactly when
    update `(e, 0)` of the column-shaped one lands on `(n, 0)`, so `e ↦ (e, 0)` matches the two sums term by term. -/
theorem scatterAdd_col_eq (d1 : ScatterDims Nodes EdgesCol Edges) (d2 : ScatterDims NodesCol EdgesCol EdgesCol)
    (h1 : d1.updateWindowDims = [] ∧ d1.insertedWindowDims = [0] ∧ d1.scatterDimsToOperandDims = [0] ∧ d1.indexVectorDim = 1)
    (h2 : d2.updateWindowDims = [1] ∧ d2.insertedWindowDims = [0] ∧ d2.scatterDimsToOperandDims = [0] ∧ d2.indexVectorDim = 1)
    (idx : IVec EdgesCol 32) (x1 : Nodes.Idx → EReal) (x2 : NodesCol.Idx → EReal) (u1 : Edges.Idx → EReal) (u2 : EdgesCol.Idx → EReal)
    (hx : ∀ n : Fin 50000, x2 (ix2 n 0) = x1 (ix1 n)) (hu : ∀ e : Fin 800000, u2 (ix2 e 0) = u1 (ix1 e)) (n : Fin 50000) :
    Ideal.hostScatterAdd d2 x2 idx u2 (ix2 n 0) = Ideal.hostScatterAdd d1 x1 idx u1 (ix1 n) := by
  unfold Ideal.hostScatterAdd
  rw [hx]
  refine congrArg (x1 (ix1 n) + ·) ?_
  refine Finset.sum_nbij' (fun j => ix1 (j 0)) (fun e => ix2 (e 0) 0) ?_ ?_ ?_ ?_ ?_
  · intro j hj
    simp only [Finset.mem_filter, Finset.mem_univ, true_and] at hj ⊢
    rw [resultIdx?_col d2 h2] at hj
    rw [resultIdx?_vec d1 h1]
    exact hj
  · intro e he
    simp only [Finset.mem_filter, Finset.mem_univ, true_and] at he ⊢
    rw [resultIdx?_vec d1 h1] at he
    rw [resultIdx?_col d2 h2]
    exact he
  · intro j _
    exact (edgesCol_eq j).symm
  · intro e _
    exact (eq_ix1 e).symm
  · intro j _
    exact (congrArg u2 (edgesCol_eq j)).trans (hu (j 0))

end Cert.SageSpec
-- ==== Proof.MeanLaw.lean ====
/-
  The neighbourhood mean is the same function in the two programs.

  One program multiplies a node's neighbourhood sum by the reciprocal 1 / max(deg, 1), the degree counted by
  scattering 800000 ones onto a vector of 50000 zeros; the other divides the sum by max(deg, 1), the degree
  counted by scattering a column of ones onto a column of zeros. The two counts agree node by node (the edge
  e of the vector is the edge (e, 0) of the column), max(deg, 1) is at least 1 and so is not 0, and on the
  extended reals a quotient by a non-zero d is the product with d⁻¹: s · (1 · d⁻¹) = s · d⁻¹. The
  neighbourhood sums themselves are one term in both programs.
-/
import proofs.«155154_j15710990369655_1_alg».proof.Proof.KernelHost
import proofs.«155154_j15710990369655_1_alg».proof.Proof.Gen.ReferenceIdeal.Read
import proofs.«155154_j15710990369655_1_alg».proof.Proof.ScatterDegree

set_option maxRecDepth 16384

noncomputable section

namespace Cert.SageBridge

open Idealize.ShloMosaic Idealize.ShloMosaic.ValueIdx
open Cert.KernelIdeal.HostSide

/-- The word of 1.0 denotes 1. -/
theorem ofBits_one : Ideal.ofBits .f32 0x3F800000#32 = 1 := by
  simp [Ideal.ofBits, Ideal.ieee, -EReal.coe_mul]; norm_num

/-- A product with the reciprocal of max(x, 1) is the quotient by it: max(x, 1) ≥ 1 is not 0. -/
theorem mul_div_max_one (s x : EReal) : s * Ideal.div 1 (max x 1) = Ideal.div s (max x 1) := by
  have h1 : (0 : EReal) < 1 := by exact_mod_cast (zero_lt_one : (0 : ℝ) < 1)
  have hd : max x 1 ≠ 0 := ne_of_gt (lt_of_lt_of_le h1 (le_max_right x 1))
  unfold Ideal.div
  rw [if_neg hd, if_neg hd, one_mul]

/-- The degree count of the first program: ones scattered onto a vector of zeros. -/
def degVec (t : (⟨Cert.KernelIdeal.S800000, .i32⟩ : BufTy).Contents (Elt Ideal)) : Cert.KernelIdeal.S50000.Idx → EReal :=
  Host.scatterAdd (F := Ideal) Cert.KernelIdeal.scatter_S50000_S800000x1_S800000_n_0_0_1
    (broadcastInDim Cert.KernelIdeal.S50000 ![] Cert.KernelIdeal.Facts₀.bcast_S_S50000 (constant (F := Ideal) Cert.KernelIdeal.S_ .f32 0x00000000#32))
    (tgtIdx (F := Ideal) t) (broadcastInDim Cert.KernelIdeal.S800000 ![] Cert.KernelIdeal.Facts₀.bcast_S_S800000 (constant (F := Ideal) Cert.KernelIdeal.S_ .f32 0x3F800000#32))

/-- A scalar broadcast to a vector of 50000 reads the scalar everywhere. -/
theorem bcastNodes_apply (v : Cert.KernelIdeal.S_.Idx → EReal) (n : Fin 50000) :
    broadcastInDim Cert.KernelIdeal.S50000 ![] Cert.KernelIdeal.Facts₀.bcast_S_S50000 v (ix1 n) = v ix0 :=
  broadcastInDim_apply _ Cert.KernelIdeal.Facts₀.bcast_S_S50000 v (ix1 n) ix0 (fun a => a.elim0)

/-- The host's quotient, entry by entry. -/
theorem hostDivf_apply {s : Shape} {φ : FTy} (a b : FVec Ideal s φ) (i : s.Idx) : Host.divf a b i = Ideal.div (a i) (b i) := rfl

/-- The reciprocal-degree column at node n is 1 / max(deg n, 1). -/
theorem invDeg_apply (t : (⟨Cert.KernelIdeal.S800000, .i32⟩ : BufTy).Contents (Elt Ideal)) (n : Fin 50000) :
    invDeg (F := Ideal) t (ix2 n (0 : Fin 1)) = Ideal.div 1 (max (degVec t (ix1 n)) 1) := by
  unfold invDeg degVec
  rw [broadcastInDim_apply _ Cert.KernelIdeal.Facts₀.bcast_S50000_S50000x1_0 _ (ix2 n (0 : Fin 1)) (ix1 n) (fun a => match a with
    | ⟨0, _⟩ => by show n.val = if (50000 : Nat) = 1 then 0 else n.val; rw [if_neg (by decide)])]
  rw [hostDivf_apply, maximumf_apply, bcastNodes_apply, constant_apply, ofBits_one]

/-- The second program's scatter row numbers are the first program's. -/
theorem refTgtIdx_eq (x1 : (⟨Cert.ReferenceIdeal.S2x800000, .i32⟩ : BufTy).Contents (Elt Ideal)) :
    Cert.ReferenceIdeal.Read.val_main_v16 (F := Ideal) x1 = tgtIdx (F := Ideal) (tgtRow (F := Ideal) x1) := rfl

/-- On the extended reals the host's accumulating scatter is the exact sum of the updates landing on an entry. -/
theorem hostScatterAdd_ideal {s si su : Shape} {φ : FTy} {w : Nat} (d : ScatterDims s si su) (x : FVec Ideal s φ) (idx : IVec si w)
    (u : FVec Ideal su φ) : Host.scatterAdd (F := Ideal) d x idx u = Ideal.hostScatterAdd d x idx u := rfl

/-- The two degree counts agree node by node: edge e of the vector is edge (e, 0) of the column. -/
theorem refCount_apply (x1 : (⟨Cert.ReferenceIdeal.S2x800000, .i32⟩ : BufTy).Contents (Elt Ideal)) (n : Fin 50000) :
    Cert.ReferenceIdeal.Read.val_main_v17 (F := Ideal) x1 (ix2 n (0 : Fin 1)) = degVec (tgtRow (F := Ideal) x1) (ix1 n) := by
  have hx : ∀ k : Fin 50000, Cert.ReferenceIdeal.Read.val_main_v15 (F := Ideal) (ix2 k (0 : Fin 1))
      = broadcastInDim Cert.KernelIdeal.S50000 ![] Cert.KernelIdeal.Facts₀.bcast_S_S50000 (constant (F := Ideal) Cert.KernelIdeal.S_ .f32 0x00000000#32) (ix1 k) := fun k => by
    rw [Cert.ReferenceIdeal.Read.val_main_v15_apply, Cert.ReferenceIdeal.Read.val_main_cst_2_apply, bcastNodes_apply, constant_apply]; rfl
  have hu : ∀ e : Fin 800000, Cert.ReferenceIdeal.Read.val_main_v14 (F := Ideal) (ix2 e (0 : Fin 1))
      = broadcastInDim Cert.KernelIdeal.S800000 ![] Cert.KernelIdeal.Facts₀.bcast_S_S800000 (constant (F := Ideal) Cert.KernelIdeal.S_ .f32 0x3F800000#32) (ix1 e) := fun e => by
    rw [Cert.ReferenceIdeal.Read.val_main_v14_apply, Cert.ReferenceIdeal.Read.val_main_cst_1_apply,
      broadcastInDim_apply _ Cert.KernelIdeal.Facts₀.bcast_S_S800000 _ (ix1 e) ix0 (fun a => a.elim0), constant_apply]; rfl
  unfold Cert.ReferenceIdeal.Read.val_main_v17 degVec
  rw [refTgtIdx_eq, hostScatterAdd_ideal, hostScatterAdd_ideal]
  exact Cert.SageSpec.scatterAdd_col_eq Cert.KernelIdeal.scatter_S50000_S800000x1_S800000_n_0_0_1 Cert.ReferenceIdeal.scatter_S50000x1_S800000x1_S800000x1_1_0_0_1
    ⟨rfl, rfl, rfl, rfl⟩ ⟨rfl, rfl, rfl, rfl⟩ (tgtIdx (F := Ideal) (tgtRow (F := Ideal) x1)) _ _ _ _ hx hu n

/-- The second program's max(deg, 1) column at node n, with the first program's count. -/
theorem refDeg_apply (x1 : (⟨Cert.ReferenceIdeal.S2x800000, .i32⟩ : BufTy).Contents (Elt Ideal)) (n : Fin 50000) :
    Cert.ReferenceIdeal.Read.val_main_v19 (F := Ideal) x1 (ix2 n (0 : Fin 1)) = max (degVec (tgtRow (F := Ideal) x1) (ix1 n)) 1 := by
  rw [Cert.ReferenceIdeal.Read.val_main_v19_apply, Cert.ReferenceIdeal.Read.val_main_v18_apply, Cert.ReferenceIdeal.Read.val_main_cst_3_apply, refCount_apply,
    Ideal.maximumf_def, Ideal.ofBits_def, ofBits_one]

/-! ## The mean, entry by entry -/

/-- A column broadcast along 64 features reads the column at the row. -/
theorem bcastCol64_apply (w : Cert.KernelIdeal.S50000x1.Idx → EReal) (n : Fin 50000) (j : Fin 64) :
    broadcastInDim Cert.KernelIdeal.S50000x64 ![0, 1] Cert.KernelIdeal.Facts₀.bcast_S50000x1_S50000x64_0_1 w (ix2 n j) = w (ix2 n (0 : Fin 1)) :=
  broadcastInDim_apply _ Cert.KernelIdeal.Facts₀.bcast_S50000x1_S50000x64_0_1 w (ix2 n j) (ix2 n (0 : Fin 1)) (fun a => match a with
    | ⟨0, _⟩ => by show n.val = if (50000 : Nat) = 1 then 0 else n.val; rw [if_neg (by decide)]
    | ⟨1, _⟩ => by show 0 = if (1 : Nat) = 1 then 0 else j.val; rw [if_pos rfl])

/-- A column broadcast along 128 features reads the column at the row. -/
theorem bcastCol128_apply (w : Cert.KernelIdeal.S50000x1.Idx → EReal) (n : Fin 50000) (j : Fin 128) :
    broadcastInDim Cert.KernelIdeal.S50000x128 ![0, 1] Cert.KernelIdeal.Facts₀.bcast_S50000x1_S50000x128_0_1 w (ix2 n j) = w (ix2 n (0 : Fin 1)) :=
  broadcastInDim_apply _ Cert.KernelIdeal.Facts₀.bcast_S50000x1_S50000x128_0_1 w (ix2 n j) (ix2 n (0 : Fin 1)) (fun a => match a with
    | ⟨0, _⟩ => by show n.val = if (50000 : Nat) = 1 then 0 else n.val; rw [if_neg (by decide)]
    | ⟨1, _⟩ => by show 0 = if (1 : Nat) = 1 then 0 else j.val; rw [if_pos rfl])

/-- The neighbourhood sums are one term in the two programs. -/
theorem nbrSum64_eq (x0 : (⟨Cert.ReferenceIdeal.S50000x64, .f32⟩ : BufTy).Contents (Elt Ideal)) (x1 : (⟨Cert.ReferenceIdeal.S2x800000, .i32⟩ : BufTy).Contents (Elt Ideal)) :
    nbrSum64 (F := Ideal) x0 (srcRow (F := Ideal) x1) (tgtRow (F := Ideal) x1) = Cert.ReferenceIdeal.Read.val_main_v13 (F := Ideal) x0 x1 := rfl
theorem nbrSum128_eq (x0 : (⟨Cert.ReferenceIdeal.S50000x64, .f32⟩ : BufTy).Contents (Elt Ideal)) (x1 : (⟨Cert.ReferenceIdeal.S2x800000, .i32⟩ : BufTy).Contents (Elt Ideal)) (x2 : (⟨Cert.ReferenceIdeal.S64x128, .f32⟩ : BufTy).Contents (Elt Ideal)) (x3 : (⟨Cert.ReferenceIdeal.S128, .f32⟩ : BufTy).Contents (Elt Ideal)) (x4 : (⟨Cert.ReferenceIdeal.S64x128, .f32⟩ : BufTy).Contents (Elt Ideal)) :
    nbrSum128 (F := Ideal) (Cert.ReferenceIdeal.Read.val_main_v28 (F := Ideal) x0 x1 x2 x3 x4) (srcRow (F := Ideal) x1) (tgtRow (F := Ideal) x1)
      = Cert.ReferenceIdeal.Read.val_main_v38 (F := Ideal) x0 x1 x2 x3 x4 := rfl
/-- The second program computes its max(deg, 1) column twice, by the same term. -/
theorem refDeg2_eq (x1 : (⟨Cert.ReferenceIdeal.S2x800000, .i32⟩ : BufTy).Contents (Elt Ideal)) : Cert.ReferenceIdeal.Read.val_main_v44 (F := Ideal) x1 = Cert.ReferenceIdeal.Read.val_main_v19 (F := Ideal) x1 := rfl

/-- The mean of the input features: sum times reciprocal degree in one program, sum over degree in the other. -/
theorem mean64_eq (x0 : (⟨Cert.ReferenceIdeal.S50000x64, .f32⟩ : BufTy).Contents (Elt Ideal)) (x1 : (⟨Cert.ReferenceIdeal.S2x800000, .i32⟩ : BufTy).Contents (Elt Ideal)) :
    mean64 (F := Ideal) x0 (srcRow (F := Ideal) x1) (tgtRow (F := Ideal) x1) (invDeg (F := Ideal) (tgtRow (F := Ideal) x1))
      = Cert.ReferenceIdeal.Read.val_main_v21 (F := Ideal) x0 x1 := by
  funext i
  obtain ⟨n, j, rfl⟩ : ∃ (n : Fin 50000) (j : Fin 64), i = ix2 n j := ⟨i 0, i 1, eq_ix2 i⟩
  have e20 : Cert.ReferenceIdeal.Read.idx_main_v20 (ix2 n j) = ix2 n (0 : Fin 1) := funext fun a => match a with | ⟨0, _⟩ => rfl | ⟨1, _⟩ => rfl
  unfold mean64
  rw [mulf_apply, bcastCol64_apply, invDeg_apply, mul_div_max_one, nbrSum64_eq,
    Cert.ReferenceIdeal.Read.val_main_v21_apply, Cert.ReferenceIdeal.Read.val_main_v20_apply, e20, refDeg_apply, Ideal.hostDivf_def]

/-- The mean of the hidden layer, the same way. -/
theorem mean128_eq (x0 : (⟨Cert.ReferenceIdeal.S50000x64, .f32⟩ : BufTy).Contents (Elt Ideal)) (x1 : (⟨Cert.ReferenceIdeal.S2x800000, .i32⟩ : BufTy).Contents (Elt Ideal)) (x2 : (⟨Cert.ReferenceIdeal.S64x128, .f32⟩ : BufTy).Contents (Elt Ideal)) (x3 : (⟨Cert.ReferenceIdeal.S128, .f32⟩ : BufTy).Contents (Elt Ideal)) (x4 : (⟨Cert.ReferenceIdeal.S64x128, .f32⟩ : BufTy).Contents (Elt Ideal)) :
    mean128 (F := Ideal) (Cert.ReferenceIdeal.Read.val_main_v28 (F := Ideal) x0 x1 x2 x3 x4) (srcRow (F := Ideal) x1) (tgtRow (F := Ideal) x1)
        (invDeg (F := Ideal) (tgtRow (F := Ideal) x1))
      = Cert.ReferenceIdeal.Read.val_main_v46 (F := Ideal) x0 x1 x2 x3 x4 := by
  funext i
  obtain ⟨n, j, rfl⟩ : ∃ (n : Fin 50000) (j : Fin 128), i = ix2 n j := ⟨i 0, i 1, eq_ix2 i⟩
  have e45 : Cert.ReferenceIdeal.Read.idx_main_v45 (ix2 n j) = ix2 n (0 : Fin 1) := funext fun a => match a with | ⟨0, _⟩ => rfl | ⟨1, _⟩ => rfl
  unfold mean128
  rw [mulf_apply, bcastCol128_apply, invDeg_apply, mul_div_max_one, nbrSum128_eq,
    Cert.ReferenceIdeal.Read.val_main_v46_apply, Cert.ReferenceIdeal.Read.val_main_v45_apply, e45, refDeg2_eq, refDeg_apply, Ideal.hostDivf_def]

end Cert.SageBridge

end
-- ==== Proof.LayerBridge.lean ====
/-
  The two layers, as the first program's calls compute them, are the second program's stages.

  Entry (n, j) of a layer is (∑ₖ mean(n,k)·Wl(k,j) + ∑ₖ x(n,k)·Wr(k,j)) + b(j) in the first program and
  (∑ₖ mean(n,k)·Wl(k,j) + b(j)) + ∑ₖ x(n,k)·Wr(k,j) in the second: the same sum by commutativity and
  associativity of addition on the extended reals, which hold at the infinities too. The bias row is a
  reshape of the bias vector in one program and a broadcast of it in the other; both read b(j) at (0, j).
-/
import proofs.«155154_j15710990369655_1_alg».proof.Proof.MeanLaw

set_option maxRecDepth 16384

noncomputable section

namespace Cert.SageBridge

open Idealize.ShloMosaic Idealize.ShloMosaic.ValueIdx
open Cert.KernelIdeal.HostSide

/-- The hidden layer of the second program's mean and the arguments is its stage after the cut-off at 0. -/
theorem hidden_eq (x0 : (⟨Cert.ReferenceIdeal.S50000x64, .f32⟩ : BufTy).Contents (Elt Ideal)) (x1 : (⟨Cert.ReferenceIdeal.S2x800000, .i32⟩ : BufTy).Contents (Elt Ideal)) (x2 : (⟨Cert.ReferenceIdeal.S64x128, .f32⟩ : BufTy).Contents (Elt Ideal)) (x3 : (⟨Cert.ReferenceIdeal.S128, .f32⟩ : BufTy).Contents (Elt Ideal)) (x4 : (⟨Cert.ReferenceIdeal.S64x128, .f32⟩ : BufTy).Contents (Elt Ideal)) :
    Cert.KernelIdeal.Layer.hidden (Cert.ReferenceIdeal.Read.val_main_v21 (F := Ideal) x0 x1) x0 x2 x4 (shapeCast _ x3 Cert.KernelIdeal.Facts₀.shapeCasts_S128_S1x128)
      = Cert.ReferenceIdeal.Read.val_main_v28 (F := Ideal) x0 x1 x2 x3 x4 := by
  funext i
  obtain ⟨n, j, rfl⟩ : ∃ (n : Fin 50000) (j : Fin 128), i = ix2 n j := ⟨i 0, i 1, eq_ix2 i⟩
  rw [Cert.ReferenceIdeal.Read.val_main_v28_apply, Cert.ReferenceIdeal.Read.val_main_v27_apply, Cert.ReferenceIdeal.Read.val_main_v25_apply, Cert.ReferenceIdeal.Read.val_main_v22_apply, Cert.ReferenceIdeal.Read.val_main_v26_apply,
    Cert.ReferenceIdeal.Read.val_main_v24_apply, Cert.ReferenceIdeal.Read.val_main_v23_apply, Cert.ReferenceIdeal.Read.val_main_call0_v0_apply, Cert.ReferenceIdeal.Read.val_main_call0_cst_apply]
  have el : ∀ k : Fin 64, Cert.ReferenceIdeal.Read.lidx_main_v22 (ix2 n j) k = ix2 n k := fun k => funext fun a => match a with | ⟨0, _⟩ => rfl | ⟨1, _⟩ => rfl
  have er : ∀ k : Fin 64, Cert.ReferenceIdeal.Read.ridx_main_v22 (ix2 n j) k = ix2 k j := fun k => funext fun a => match a with | ⟨0, _⟩ => rfl | ⟨1, _⟩ => rfl
  have el' : ∀ k : Fin 64, Cert.ReferenceIdeal.Read.lidx_main_v26 (ix2 n j) k = ix2 n k := fun k => funext fun a => match a with | ⟨0, _⟩ => rfl | ⟨1, _⟩ => rfl
  have er' : ∀ k : Fin 64, Cert.ReferenceIdeal.Read.ridx_main_v26 (ix2 n j) k = ix2 k j := fun k => funext fun a => match a with | ⟨0, _⟩ => rfl | ⟨1, _⟩ => rfl
  have eb : Cert.ReferenceIdeal.Read.idx_main_v23 (Cert.ReferenceIdeal.Read.idx_main_v24 (ix2 n j)) = ix1 j := funext fun a => match a with | ⟨0, _⟩ => rfl
  simp only [el, er, el', er', eb]
  unfold Cert.KernelIdeal.Layer.hidden
  rw [shapeCast_a_1a_apply, Ideal.maximumf_def, Ideal.addf_def, Ideal.addf_def, Ideal.ofBits_def, Ideal.ofBits_zero_f32, add_right_comm]

/-- The output layer of the second program's mean, its hidden stage and the arguments is its result. -/
theorem output_eq (x0 : (⟨Cert.ReferenceIdeal.S50000x64, .f32⟩ : BufTy).Contents (Elt Ideal)) (x1 : (⟨Cert.ReferenceIdeal.S2x800000, .i32⟩ : BufTy).Contents (Elt Ideal)) (x2 : (⟨Cert.ReferenceIdeal.S64x128, .f32⟩ : BufTy).Contents (Elt Ideal)) (x3 : (⟨Cert.ReferenceIdeal.S128, .f32⟩ : BufTy).Contents (Elt Ideal)) (x4 : (⟨Cert.ReferenceIdeal.S64x128, .f32⟩ : BufTy).Contents (Elt Ideal)) (x5 : (⟨Cert.ReferenceIdeal.S128x64, .f32⟩ : BufTy).Contents (Elt Ideal)) (x6 : (⟨Cert.ReferenceIdeal.S64, .f32⟩ : BufTy).Contents (Elt Ideal)) (x7 : (⟨Cert.ReferenceIdeal.S128x64, .f32⟩ : BufTy).Contents (Elt Ideal)) :
    Cert.KernelIdeal.Layer.output (Cert.ReferenceIdeal.Read.val_main_v46 (F := Ideal) x0 x1 x2 x3 x4) (Cert.ReferenceIdeal.Read.val_main_v28 (F := Ideal) x0 x1 x2 x3 x4) x5 x7
        (shapeCast _ x6 Cert.KernelIdeal.Facts₀.shapeCasts_S64_S1x64)
      = Cert.ReferenceIdeal.Read.val_main_v52 (F := Ideal) x0 x1 x2 x3 x4 x5 x6 x7 := by
  funext i
  obtain ⟨n, j, rfl⟩ : ∃ (n : Fin 50000) (j : Fin 64), i = ix2 n j := ⟨i 0, i 1, eq_ix2 i⟩
  rw [Cert.ReferenceIdeal.Read.val_main_v52_apply, Cert.ReferenceIdeal.Read.val_main_v50_apply, Cert.ReferenceIdeal.Read.val_main_v47_apply, Cert.ReferenceIdeal.Read.val_main_v51_apply,
    Cert.ReferenceIdeal.Read.val_main_v49_apply, Cert.ReferenceIdeal.Read.val_main_v48_apply]
  have el : ∀ k : Fin 128, Cert.ReferenceIdeal.Read.lidx_main_v47 (ix2 n j) k = ix2 n k := fun k => funext fun a => match a with | ⟨0, _⟩ => rfl | ⟨1, _⟩ => rfl
  have er : ∀ k : Fin 128, Cert.ReferenceIdeal.Read.ridx_main_v47 (ix2 n j) k = ix2 k j := fun k => funext fun a => match a with | ⟨0, _⟩ => rfl | ⟨1, _⟩ => rfl
  have el' : ∀ k : Fin 128, Cert.ReferenceIdeal.Read.lidx_main_v51 (ix2 n j) k = ix2 n k := fun k => funext fun a => match a with | ⟨0, _⟩ => rfl | ⟨1, _⟩ => rfl
  have er' : ∀ k : Fin 128, Cert.ReferenceIdeal.Read.ridx_main_v51 (ix2 n j) k = ix2 k j := fun k => funext fun a => match a with | ⟨0, _⟩ => rfl | ⟨1, _⟩ => rfl
  have eb : Cert.ReferenceIdeal.Read.idx_main_v48 (Cert.ReferenceIdeal.Read.idx_main_v49 (ix2 n j)) = ix1 j := funext fun a => match a with | ⟨0, _⟩ => rfl
  simp only [el, er, el', er', eb]
  unfold Cert.KernelIdeal.Layer.output
  rw [shapeCast_a_1a_apply, Ideal.addf_def, Ideal.addf_def, add_right_comm]

/-- The first program's result, as a function of the eight arguments, is the second program's. -/
theorem value_eq (x0 : (⟨Cert.ReferenceIdeal.S50000x64, .f32⟩ : BufTy).Contents (Elt Ideal)) (x1 : (⟨Cert.ReferenceIdeal.S2x800000, .i32⟩ : BufTy).Contents (Elt Ideal)) (x2 : (⟨Cert.ReferenceIdeal.S64x128, .f32⟩ : BufTy).Contents (Elt Ideal)) (x3 : (⟨Cert.ReferenceIdeal.S128, .f32⟩ : BufTy).Contents (Elt Ideal)) (x4 : (⟨Cert.ReferenceIdeal.S64x128, .f32⟩ : BufTy).Contents (Elt Ideal)) (x5 : (⟨Cert.ReferenceIdeal.S128x64, .f32⟩ : BufTy).Contents (Elt Ideal)) (x6 : (⟨Cert.ReferenceIdeal.S64, .f32⟩ : BufTy).Contents (Elt Ideal)) (x7 : (⟨Cert.ReferenceIdeal.S128x64, .f32⟩ : BufTy).Contents (Elt Ideal)) :
    value x0 x1 x2 x3 x4 x5 x6 x7 = Cert.ReferenceIdeal.Read.val_main_v52 (F := Ideal) x0 x1 x2 x3 x4 x5 x6 x7 := by
  unfold value
  rw [mean64_eq, hidden_eq, mean128_eq, output_eq]

end Cert.SageBridge

end
-- ==== Proof.lean ====
/-
  A two-layer graph network with mean aggregation: the tiled kernel and the plain reference compute one function.

  Both programs take node features x (50000 × 64), an edge list (2 × 800000: sources, targets) and two layers'
  weights and biases. A layer maps features f to
      mean(f) · Wl + f · Wr + b,        mean(f)(n) = (Σ over edges e into n of f(source e)) / max(deg n, 1),
  the first layer followed by the maximum with 0. The kernel computes the linear part of each layer in a
  pallas_call over 5 blocks of 10000 rows (two matrix products into zero accumulators, added, plus the bias)
  and the aggregation on the host as sum · (1 / max(deg, 1)); the reference computes sum / max(deg, 1) and
  adds the bias between the two products. On the extended reals the casts to bf16 are the identity, a product
  into a zero accumulator is the plain sum over the contracted axis, the 5 blocks tile the rows, s · (1 · d⁻¹)
  = s · d⁻¹ for the non-zero d = max(deg, 1), the two degree counts (ones scattered onto a vector, or onto a
  column) agree node by node, and (A + B) + b = (A + b) + B. None of these needs the inputs to be finite.

  The frames of the two kernel programs are the generated ones; the reference's frame is its generated run with
  the result dropped; the idealization rewrote nothing, so the sanctioned-idealization claim is trivial.
-/
import proofs.«155154_j15710990369655_1_alg».proof.Defs
import proofs.«155154_j15710990369655_1_alg».proof.Proof.Gen.Kernel
import proofs.«155154_j15710990369655_1_alg».proof.Proof.Gen.Kernel.Skeleton
import proofs.«155154_j15710990369655_1_alg».proof.Proof.Gen.Kernel.Launch
import proofs.«155154_j15710990369655_1_alg».proof.Proof.Gen.Kernel.Points
import proofs.«155154_j15710990369655_1_alg».proof.Proof.Gen.Kernel.Frame
import proofs.«155154_j15710990369655_1_alg».proof.Proof.Gen.KernelIdeal
import proofs.«155154_j15710990369655_1_alg».proof.Proof.Gen.KernelIdeal.Skeleton
import proofs.«155154_j15710990369655_1_alg».proof.Proof.Gen.KernelIdeal.Launch
import proofs.«155154_j15710990369655_1_alg».proof.Proof.Gen.KernelIdeal.Points
import proofs.«155154_j15710990369655_1_alg».proof.Proof.Gen.KernelIdeal.Frame
import proofs.«155154_j15710990369655_1_alg».proof.Proof.Gen.ReferenceIdeal
import proofs.«155154_j15710990369655_1_alg».proof.Proof.Gen.ReferenceIdeal.Run
import proofs.«155154_j15710990369655_1_alg».proof.Proof.Gen.ReferenceIdeal.Read
import proofs.«155154_j15710990369655_1_alg».proof.Proof.Gen.Pre_finite_inputs
import proofs.«155154_j15710990369655_1_alg».proof.Proof.KernelRun
import proofs.«155154_j15710990369655_1_alg».proof.Proof.KernelHost
import proofs.«155154_j15710990369655_1_alg».proof.Proof.LayerBridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments; dropping what it says of the result leaves the frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at one function of the eight arguments: the kernel's run read back
    through its two calls and the host operations around them, the reference's run read stage by stage, and the
    two functions equal entry by entry. -/
theorem algebraic : Cert.algebraic_KernelIdeal_ReferenceIdeal := by
  intro m ρ m' ρ' _ hagree
  refine ⟨fun c => Cert.KernelIdeal.HostSide.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.HostSide.W4_v40 m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v52_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.SageBridge.value_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
